-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x1024 .f32) (main_arg1 : FVec F S2048x1024 .f32) (main_arg2 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S2048x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S2048x1024_S2048_d1 : S2048x1024.ReducesTo [1] S2048
  h_S_ : 0 < S_.numel
  shapeCasts_S2048_S1x2048 : S2048.ShapeCasts S1x2048
  bcast_S_S2048 : S_.BroadcastsInDim S2048 (![] : Fin 0 → Fin S2048.rank)
  inb_S512x1024_S512x1024_0_0 : ∀ a, (![0, 0] : Fin 2 → Nat) a + S512x1024.size a ≤ S512x1024.size a
  h_S512x1024 : 0 < S512x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x1024_S512 : S512x1024.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S2048x1024_S2048_d1 : S2048x1024.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.TileEntry.lean ====
/-
  One entry of the kernel's output tile, as a formula of the four loaded blocks.

  The body holds a tile of 512 rows of `x` (all 1024 features), the whole centre matrix (2048 centres by 1024 features),
  the centres' squared norms as one row and the inverse squared widths as one row. For row `p` of the tile and centre
  `q` it computes
    exp ((0 - max ((|x_p|² + csq_q) - 2 · ⟨x_p, c_q⟩) 0) · w_q),
  where `|x_p|²` is the lane sum of the squares of row `p`, kept as a column and repeated along the lanes, `csq` and `w`
  are single rows repeated down the rows, and `⟨x_p, c_q⟩` is the matrix product contracting the feature axis of both
  operands (the change of format on the way in is the identity on extended reals, the accumulator is zero).
-/
import proofs.«173852_j32100585570665_2_alg».proof.Proof.Gen.KernelIdeal.Skeleton
import proofs.«173852_j32100585570665_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Tile

open Idealize.ShloMosaic Idealize.ShloMosaic.ValueIdx Cert.KernelIdeal Cert.KernelIdeal.Gen

/-- The matrix product's dimension numbers: the feature axis (axis 1) of both operands is contracted. -/
abbrev D := dot_S512x1024_S2048x1024_S512x2048_1_1_0_0_n_n

/-- The squared norm of tile row `p`: the lane sum of the squares, viewed as a column and repeated along the lanes. -/
theorem rowSq_apply (x0 : FVec Ideal S512x1024 .f32) (h1 : S512x1024.Reduces [1] S512) (hφ : FKind.Formats .f32)
    (hacc : (0x00000000#32 : BitVec 32) = FKind.add.neutral .f32 hφ)
    (h2 : S512.ShapeCasts S512x1) (h3 : S512x1.Broadcasts S512x2048) (p : Fin 512) (q : Fin 2048) :
    broadcastTo S512x2048 (shapeCast S512x1 (multiReduction .add [1] S512 (mulf x0 x0) 0x00000000#32 h1 hφ hacc) h2) h3 (ix2 p q)
      = ∑ k : Fin 1024, x0 (ix2 p k) * x0 (ix2 p k) := by
  refine (Cert.LibLayout.broadcastTo_a1_ab_apply _ h3 p q).trans ?_
  refine (Cert.LibLayout.shapeCast_a_a1_apply _ h2 p 0).trans ?_
  refine (Ideal.multiReduction_add_single (mulf x0 x0) 0x00000000#32 h1 hφ hacc (ix1 p)).trans ?_
  refine Finset.sum_congr rfl fun k _ => ?_
  have e : h1.lift (ix1 p) k = ix2 p k := funext fun a => Fin.ext (by match a with | ⟨0, _⟩ => rfl | ⟨1, _⟩ => rfl)
  rw [e]
  rfl

/-- A single row, cast to its own shape and repeated down the 512 rows, reads its entry of lane `q`. -/
theorem rowRepeat_apply (r : FVec Ideal S1x2048 .f32) (h : S1x2048.ShapeCasts S1x2048) (hb : S1x2048.Broadcasts S512x2048)
    (p : Fin 512) (q : Fin 2048) :
    broadcastTo S512x2048 (shapeCast S1x2048 r h) hb (ix2 p q) = r (ix2 (0 : Fin 1) q) := by
  rw [shapeCast_self]
  exact broadcastTo_1b_ab_apply r hb p q

theorem lhs_0 (i : S512x2048.Idx) (k : D.contr.Idx) : (D.lhsIdx i k 0).val = (i 0).val := by
  unfold DotDims.lhsIdx
  rw [dif_neg (show ¬(0 : Fin S512x1024.rank) ∈ D.lhsBatch by decide), dif_pos (show (0 : Fin S512x1024.rank) ∈ D.lhsNonContracting by decide)]
  rfl
theorem lhs_1 (i : S512x2048.Idx) (k : D.contr.Idx) : (D.lhsIdx i k 1).val = (k ⟨0, by decide⟩).val :=
  D.lhsIdx_val_of_single rfl i k
theorem rhs_0 (i : S512x2048.Idx) (k : D.contr.Idx) : (D.rhsIdx i k 0).val = (i 1).val := by
  unfold DotDims.rhsIdx
  rw [dif_neg (show ¬(0 : Fin S2048x1024.rank) ∈ D.rhsBatch by decide), dif_pos (show (0 : Fin S2048x1024.rank) ∈ D.rhsNonContracting by decide)]
  rfl
theorem rhs_1 (i : S512x2048.Idx) (k : D.contr.Idx) : (D.rhsIdx i k 1).val = (k ⟨0, by decide⟩).val :=
  D.rhsIdx_val_of_single rfl i k

/-- The matrix product at `(p, q)`: the sum over the 1024 features of row `p` of the tile times row `q` of the centres. -/
theorem cross_apply (x0 : FVec Ideal S512x1024 .f32) (x1 : FVec Ideal S2048x1024 .bf16) (hb : FTy.bits .bf16 < FTy.bits .f32)
    (hc : S2048x1024.ShapeCasts S2048x1024) (p : Fin 512) (q : Fin 2048) :
    matmul D none (truncf .bf16 x0 hb) (shapeCast S2048x1024 x1 hc) (constant S512x2048 .f32 0x00000000#32) (ix2 p q)
      = ∑ k : Fin 1024, x0 (ix2 p k) * x1 (ix2 q k) := by
  rw [shapeCast_self]
  refine (Ideal.matmul_constant_zero_apply D none _ _ (ix2 p q)).trans ?_
  rw [← Equiv.sum_comp (ValueIdx.contrEquiv1 D 1024 rfl rfl).symm]
  refine Finset.sum_congr rfl fun k _ => ?_
  have hk := ValueIdx.contrEquiv1_symm_val D 1024 rfl rfl k
  have el : D.lhsIdx (ix2 p q) ((ValueIdx.contrEquiv1 D 1024 rfl rfl).symm k) = ix2 p k := funext fun a => Fin.ext (by
    match a with
    | ⟨0, _⟩ => exact lhs_0 _ _
    | ⟨1, _⟩ => exact (lhs_1 _ _).trans hk)
  have er : D.rhsIdx (ix2 p q) ((ValueIdx.contrEquiv1 D 1024 rfl rfl).symm k) = ix2 q k := funext fun a => Fin.ext (by
    match a with
    | ⟨0, _⟩ => exact rhs_0 _ _
    | ⟨1, _⟩ => exact (rhs_1 _ _).trans hk)
  rw [el, er]
  rfl

/-- THE ENTRY: the body's stored value at row `p`, lane `q` of the tile. -/
theorem pay_apply (x0 : Vec Ideal S512x1024 .f32) (x1 : Vec Ideal S2048x1024 .bf16) (x2 x3 : Vec Ideal S1x2048 .f32)
    (p : Fin 512) (q : Fin 2048) :
    k0_pay1 x0 x1 x2 x3 (ix2 p q)
      = Ideal.exp ((0 - max (((∑ k : Fin 1024, x0 (ix2 p k) * x0 (ix2 p k)) + x2 (ix2 (0 : Fin 1) q))
            - Ideal.ofBits .f32 0x40000000#32 * ∑ k : Fin 1024, x0 (ix2 p k) * x1 (ix2 q k)) 0) * x3 (ix2 (0 : Fin 1) q)) := by
  have hA := rowSq_apply x0 reduces_S512x1024_S512 (.inl rfl) rfl shapeCasts_S512_S512x1 broadcasts_S512x1_S512x2048 p q
  have hB := rowRepeat_apply x2 shapeCasts_S1x2048_S1x2048 broadcasts_S1x2048_S512x2048 p q
  have hC := cross_apply x0 x1 bitsLt_bf16_f32 shapeCasts_S2048x1024_S2048x1024 p q
  have hD := rowRepeat_apply x3 shapeCasts_S1x2048_S1x2048 broadcasts_S1x2048_S512x2048 p q
  unfold k0_pay1
  show Ideal.exp ((Ideal.ofBits .f32 0x00000000#32 - max ((_ + _) - Ideal.ofBits .f32 0x40000000#32 * _) (Ideal.ofBits .f32 0x00000000#32)) * _) = _
  rw [hA, hB, hC, hD, Ideal.ofBits_zero_f32]

end Cert.Rbf.Tile

end
-- ==== Proof.RbfSpec.lean ====
/-
  The radial-basis layer as one function of its three arrays, entry by entry.

  `x` holds 16384 points of 1024 features, `cen` 2048 centres of 1024 features, `ls` the logarithm of each centre's
  width. The squared distance of point `n` to centre `c` is taken by the expansion
    |x_n - c_c|² = |x_n|² + |c_c|² - 2 ⟨x_n, c_c⟩,
  clamped below at zero, and the layer's entry is
    exp ((0 - sqDist n c) · exp (-2 · ls_c)),
  the Gaussian of the distance measured in widths, with the division by the squared width written as a product.
  The constant `2` stays the word both programs spell; `-2` is the word of the width's exponent.
-/
import Idealize.ShloMosaic.PureOps.Ideal
import Idealize.ShloMosaic.Lib.ValueIdx

noncomputable section

namespace Cert.Rbf

open Idealize.ShloMosaic Idealize.ShloMosaic.ValueIdx

/-- The squared norm of row `n` of a matrix with 1024 columns. -/
def rowSq {N : ℕ} (a : (⟨2, ![N, 1024]⟩ : Shape).Idx → EReal) (n : Fin N) : EReal :=
  ∑ k : Fin 1024, a (ix2 n k) * a (ix2 n k)

/-- The inner product of point `n` with centre `c`. -/
def inner (x : (⟨2, ![16384, 1024]⟩ : Shape).Idx → EReal) (cen : (⟨2, ![2048, 1024]⟩ : Shape).Idx → EReal)
    (n : Fin 16384) (c : Fin 2048) : EReal :=
  ∑ k : Fin 1024, x (ix2 n k) * cen (ix2 c k)

/-- The squared distance of point `n` to centre `c` by the expansion of the square, clamped below at zero. -/
def sqDist (x : (⟨2, ![16384, 1024]⟩ : Shape).Idx → EReal) (cen : (⟨2, ![2048, 1024]⟩ : Shape).Idx → EReal)
    (n : Fin 16384) (c : Fin 2048) : EReal :=
  max ((rowSq x n + rowSq cen c) - Ideal.ofBits .f32 0x40000000#32 * inner x cen n c) 0

theorem sqDist_nonneg (x : (⟨2, ![16384, 1024]⟩ : Shape).Idx → EReal) (cen : (⟨2, ![2048, 1024]⟩ : Shape).Idx → EReal)
    (n : Fin 16384) (c : Fin 2048) : 0 ≤ sqDist x cen n c := le_max_right _ _

/-- The layer's entry for point `n` and centre `c`. -/
def rbfAt (x : (⟨2, ![16384, 1024]⟩ : Shape).Idx → EReal) (cen : (⟨2, ![2048, 1024]⟩ : Shape).Idx → EReal)
    (ls : (⟨1, ![2048]⟩ : Shape).Idx → EReal) (n : Fin 16384) (c : Fin 2048) : EReal :=
  Ideal.exp ((0 - sqDist x cen n c) * Ideal.exp (Ideal.ofBits .f32 0xC0000000#32 * ls (ix1 c)))

/-- The layer's whole output. -/
def rbf (x : (⟨2, ![16384, 1024]⟩ : Shape).Idx → EReal) (cen : (⟨2, ![2048, 1024]⟩ : Shape).Idx → EReal)
    (ls : (⟨1, ![2048]⟩ : Shape).Idx → EReal) : (⟨2, ![16384, 2048]⟩ : Shape).Idx → EReal :=
  fun i => rbfAt x cen ls (i 0) (i 1)

theorem rbf_ix2 (x : (⟨2, ![16384, 1024]⟩ : Shape).Idx → EReal) (cen : (⟨2, ![2048, 1024]⟩ : Shape).Idx → EReal)
    (ls : (⟨1, ![2048]⟩ : Shape).Idx → EReal) (n : Fin 16384) (c : Fin 2048) :
    rbf x cen ls (ix2 n c) = rbfAt x cen ls n c := rfl

end Cert.Rbf

end
-- ==== Proof.KernelArray.lean ====
/-
  The kernel's output array is the radial-basis layer.

  Before the region the host prepares three arrays from the arguments: the centres in the narrow format (the same
  extended reals), the centres' squared norms as one row of 2048, and the inverse squared widths `exp (-2 · ls)` as one
  row of 2048. The grid has 32 points; point `t` reads rows `512 t … 512 t + 511` of `x`, the three prepared arrays
  whole, and writes rows `512 t … 512 t + 511` of the output. So what point `t` writes back is block `t` of ONE
  function of the arguments, the layer `rbf`; the 32 blocks tile the output (row `r` is in block `r / 512`), and the
  output ends holding `rbf` of the arguments.
-/
import proofs.«173852_j32100585570665_2_alg».proof.Proof.Gen.KernelIdeal.Frame
import proofs.«173852_j32100585570665_2_alg».proof.Proof.Gen.KernelIdeal.Value
import proofs.«173852_j32100585570665_2_alg».proof.Proof.TileEntry
import proofs.«173852_j32100585570665_2_alg».proof.Proof.RbfSpec
import Idealize.ShloMosaic.Lib.Pipeline.Value
import Idealize.ShloMosaic.Lib.StableHlo.Run
import Idealize.ShloMosaic.Lib.ValueLayout
import Idealize.ShloMosaic.PureOps.Ideal.Laws

noncomputable section

namespace Cert.Rbf.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host prepares before the region -/

/-- The centres as the region finds them: the argument, its format narrowed. -/
theorem V_cen (c : Dev nD) : (V m c main_v0 : FVec Ideal S2048x1024 .bf16)
    = (truncf (F := Ideal) .bf16 (m ((c : Thread nD τ).loc main_arg1) : FVec Ideal S2048x1024 .f32) bitsLt_bf16_f32 : FVec Ideal S2048x1024 .bf16) := by
  dsimp only [Gen.V, Gen.hostOps0]; after_results

/-- The centres' squared norms as the region finds them: the host's row sums of the squares, as one row. -/
theorem V_csq (c : Dev nD) : (V m c main_v3 : S1x2048.Idx → EReal)
    = shapeCast S1x2048 (Host.reduceAdd (F := Ideal)
        (mulf (m ((c : Thread nD τ).loc main_arg1) : FVec Ideal S2048x1024 .f32) (m ((c : Thread nD τ).loc main_arg1)))
        (constant (F := Ideal) S_ .f32 0x00000000#32) reducesTo_S2048x1024_S2048_d1 h_S_) shapeCasts_S2048_S1x2048 := by
  dsimp only [Gen.V, Gen.hostOps0]; after_results; rfl

/-- The inverse squared widths as the region finds them: `exp (-2 · ls)`, as one row. -/
theorem V_wid (c : Dev nD) : (V m c main_v7 : S1x2048.Idx → EReal)
    = shapeCast S1x2048 (Host.exp (F := Ideal) (mulf (broadcastInDim S2048 ![] bcast_S_S2048 (constant (F := Ideal) S_ .f32 0xC0000000#32))
        (m ((c : Thread nD τ).loc main_arg2) : FVec Ideal S2048 .f32))) shapeCasts_S2048_S1x2048 := by
  dsimp only [Gen.V, Gen.hostOps0]; after_results; rfl

/-- The host's sum along the feature axis of a 2048 × 1024 array, read at row `q`: the initial value plus the row's sum. -/
theorem hostRowSum_apply (y : FVec Ideal S2048x1024 .f32) (init : FVec Ideal S_ .f32) (q : Fin 2048) :
    Host.reduceAdd (F := Ideal) y init reducesTo_S2048x1024_S2048_d1 h_S_ (ix1 q)
      = init (Shape.Idx.first h_S_) + ∑ k : Fin 1024, y (ix2 q k) := by
  simp only [Host.reduceAdd, Ideal.hostReduceAdd_def]
  rw [Ideal.hostReduceAdd_single reducesTo_S2048x1024_S2048_d1 (by decide)]
  refine congrArg (_ + ·) (Finset.sum_congr rfl fun k _ => ?_)
  exact congrArg y (funext fun a => Fin.ext (by match a with | ⟨0, _⟩ => rfl | ⟨1, _⟩ => rfl))

/-- Entry `q` of the prepared row of squared norms is the squared norm of centre `q`. -/
theorem csq_read (c : Dev nD) (q : Fin 2048) :
    (V m c main_v3 : S1x2048.Idx → EReal) (ix2 (0 : Fin 1) q) = rowSq (m ((c : Thread nD τ).loc main_arg1)) q := by
  rw [V_csq]
  refine (shapeCast_a_1a_apply _ shapeCasts_S2048_S1x2048 0 q).trans ?_
  refine (hostRowSum_apply _ _ q).trans ?_
  show Ideal.ofBits .f32 0x00000000#32 + _ = _
  rw [Ideal.ofBits_zero_f32, zero_add]
  rfl

/-- Entry `q` of the prepared row of inverse squared widths is `exp (-2 · ls_q)`. -/
theorem wid_read (c : Dev nD) (q : Fin 2048) :
    (V m c main_v7 : S1x2048.Idx → EReal) (ix2 (0 : Fin 1) q)
      = Ideal.exp (Ideal.ofBits .f32 0xC0000000#32 * (m ((c : Thread nD τ).loc main_arg2) : S2048.Idx → EReal) (ix1 q)) := by
  rw [V_wid]
  refine (shapeCast_a_1a_apply _ shapeCasts_S2048_S1x2048 0 q).trans ?_
  rfl

/-! ## The blocks of the four input windows -/

theorem hz : (![0, 0] : Fin 2 → Nat) = fun _ => 0 := funext fun a => by fin_cases a <;> rfl

/-- The printed index maps, decided over the 32 points: the tile of `x` and the output tile move with the point along the
    rows; the three prepared arrays are read whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the tile of `x` at point `t` is row `512 t + p` of `x`. -/
theorem xblk_read (c : Dev nD) (t : Fin cfg0.N) (p : Fin 512) (k : Fin 1024) (n : Fin 16384) (hn : n.val = t.val * 512 + p.val) :
    (iblk m c 0 t : Vec Ideal S512x1024 .f32) (ix2 p k) = (m ((c : Thread nD τ).loc main_arg0) : S16384x1024.Idx → EReal) (ix2 n k) := by
  obtain ⟨e0, e1, -⟩ := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 512 + 1 * p.val = n.val; omega
  | ⟨1, _⟩ => show win0_0.index t (1 : Fin 2) * 1024 + 1 * k.val = k.val; omega

/-- The centres' block at any point is the whole prepared array, the centres themselves. -/
theorem cblk_read (c : Dev nD) (t : Fin cfg0.N) (q : Fin 2048) (k : Fin 1024) :
    (iblk m c 1 t : Vec Ideal S2048x1024 .bf16) (ix2 q k) = (m ((c : Thread nD τ).loc main_arg1) : S2048x1024.Idx → EReal) (ix2 q k) := by
  obtain ⟨-, -, e2, e3, -⟩ := idx_facts t
  show V m c main_v0 (((cfg0.win 1).blk t).view.emb (ix2 q k)) = _
  rw [V_cen]
  show (m ((c : Thread nD τ).loc main_arg1) : S2048x1024.Idx → EReal) (((cfg0.win 1).blk t).view.emb (ix2 q k)) = _
  refine congrArg _ ?_
  funext a; apply Fin.ext
  match a with
  | ⟨0, _⟩ => show win0_1.index t (0 : Fin 2) * 2048 + 1 * q.val = q.val; omega
  | ⟨1, _⟩ => show win0_1.index t (1 : Fin 2) * 1024 + 1 * k.val = k.val; omega

/-- The squared norms' block at any point is the whole prepared row. -/
theorem sblk_read (c : Dev nD) (t : Fin cfg0.N) (q : Fin 2048) :
    (iblk m c 2 t : Vec Ideal S1x2048 .f32) (ix2 (0 : Fin 1) q) = rowSq (m ((c : Thread nD τ).loc main_arg1)) q := by
  obtain ⟨-, -, -, -, e4, e5, -⟩ := idx_facts t
  rw [← csq_read m c q]
  show V m c main_v3 (((cfg0.win 2).blk t).view.emb (ix2 (0 : Fin 1) q)) = V m c main_v3 (ix2 (0 : Fin 1) q)
  refine congrArg _ ?_
  funext a; apply Fin.ext
  match a with
  | ⟨0, _⟩ => show win0_2.index t (0 : Fin 2) * 1 + 1 * 0 = 0; omega
  | ⟨1, _⟩ => show win0_2.index t (1 : Fin 2) * 2048 + 1 * q.val = q.val; omega

/-- The widths' block at any point is the whole prepared row. -/
theorem wblk_read (c : Dev nD) (t : Fin cfg0.N) (q : Fin 2048) :
    (iblk m c 3 t : Vec Ideal S1x2048 .f32) (ix2 (0 : Fin 1) q)
      = Ideal.exp (Ideal.ofBits .f32 0xC0000000#32 * (m ((c : Thread nD τ).loc main_arg2) : S2048.Idx → EReal) (ix1 q)) := by
  obtain ⟨-, -, -, -, -, -, e6, e7, -⟩ := idx_facts t
  rw [← wid_read m c q]
  show V m c main_v7 (((cfg0.win 3).blk t).view.emb (ix2 (0 : Fin 1) q)) = V m c main_v7 (ix2 (0 : Fin 1) q)
  refine congrArg _ ?_
  funext a; apply Fin.ext
  match a with
  | ⟨0, _⟩ => show win0_3.index t (0 : Fin 2) * 1 + 1 * 0 = 0; omega
  | ⟨1, _⟩ => show win0_3.index t (1 : Fin 2) * 2048 + 1 * q.val = q.val; omega

/-! ## From the tiles to the array -/

/-- A tile entry is the layer's entry: for blocks that are rows `512 T …` of `x`, the centres, their squared norms and
    the inverse squared widths, the body's value at `(p, q)` is the layer at `(512 T + p, q)`. -/
theorem tile_is_layer (x0 : Vec Ideal S512x1024 .f32) (x1 : Vec Ideal S2048x1024 .bf16) (x2 x3 : Vec Ideal S1x2048 .f32)
    (A0 : S16384x1024.Idx → EReal) (A1 : S2048x1024.Idx → EReal) (A2 : S2048.Idx → EReal)
    (p : Fin 512) (q : Fin 2048) (n : Fin 16384)
    (h0 : ∀ k : Fin 1024, x0 (ix2 p k) = A0 (ix2 n k))
    (h1 : ∀ k : Fin 1024, x1 (ix2 q k) = A1 (ix2 q k))
    (h2 : x2 (ix2 (0 : Fin 1) q) = rowSq A1 q)
    (h3 : x3 (ix2 (0 : Fin 1) q) = Ideal.exp (Ideal.ofBits .f32 0xC0000000#32 * A2 (ix1 q))) :
    k0_pay1 x0 x1 x2 x3 (ix2 p q) = rbf A0 A1 A2 (ix2 n q) := by
  rw [Cert.Rbf.Tile.pay_apply, rbf_ix2, h2, h3]
  simp only [h0, h1]
  rfl

/-- WHAT POINT `t` WRITES BACK is block `t` of the layer of the arguments. -/
theorem flushed_eq (c : Dev nD) (t : Fin cfg0.N) :
    (dats m 0 c).flushed 4 t = ((cfg0.win 4).blk t).view.read (Elt Ideal)
      (rbf (m ((c : Thread nD τ).loc main_arg0)) (m ((c : Thread nD τ).loc main_arg1)) (m ((c : Thread nD τ).loc main_arg2))) := by
  rw [Cert.KernelIdeal.Value.flushed4]
  unfold out0_4
  rw [View.canon_unit_zero hz]
  simp only [View.ld_unit_zero (S := S512x1024) hz, View.ld_unit_zero (S := S2048x1024) hz, View.ld_unit_zero (S := S1x2048) hz]
  obtain ⟨-, -, -, -, -, -, -, -, e8, e9⟩ := idx_facts t
  have hN : cfg0.N = 32 := N_0
  have ht : t.val < 32 := hN ▸ t.isLt
  funext j
  obtain ⟨p, q, rfl⟩ : ∃ (p : Fin 512) (q : Fin 2048), j = ix2 p q := ⟨j 0, j 1, eq_ix2 j⟩
  have hp : p.val < 512 := p.isLt
  show k0_pay1 (iblk m c 0 t) (iblk m c 1 t) (iblk m c 2 t) (iblk m c 3 t) (ix2 p q)
    = rbf (m ((c : Thread nD τ).loc main_arg0)) (m ((c : Thread nD τ).loc main_arg1)) (m ((c : Thread nD τ).loc main_arg2))
        (((cfg0.win 4).blk t).view.emb (ix2 p q))
  have hemb : ((cfg0.win 4).blk t).view.emb (ix2 p q) = ix2 (⟨t.val * 512 + p.val, by omega⟩ : Fin 16384) q := by
    funext a; apply Fin.ext
    match a with
    | ⟨0, _⟩ => show win0_4.index t (0 : Fin 2) * 512 + 1 * p.val = t.val * 512 + p.val; omega
    | ⟨1, _⟩ => show win0_4.index t (1 : Fin 2) * 2048 + 1 * q.val = q.val; omega
  rw [hemb]
  exact tile_is_layer (iblk m c 0 t) (iblk m c 1 t) (iblk m c 2 t) (iblk m c 3 t) _ _ _ p q _
    (fun k => xblk_read m c t p k _ rfl) (fun k => cblk_read m c t q k) (sblk_read m c t q) (wblk_read m c t q)

/-- An index of the output is in point `t`'s block iff each coordinate is in the block's range on its axis. -/
theorem mem_blk (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v8).slice (win0_4.rect t)).set ↔ _
  rw [View.set_slice_whole, Rect.mem_set_unit]
  exact Iff.rfl

/-- THE COVER: row `r` of the output is in the block of point `r / 512`. -/
theorem cover (i : S16384x2048.Idx) : ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 32 := N_0
  have hlt : (i 0).val / 512 < cfg0.N := by rw [hN]; omega
  obtain ⟨-, -, -, -, -, -, -, -, e8, e9⟩ := idx_facts ⟨(i 0).val / 512, hlt⟩
  have e8' : win0_4.index ⟨(i 0).val / 512, hlt⟩ (0 : Fin 2) = (i 0).val / 512 := e8
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val ∧ (i 0).val < win0_4.index ⟨(i 0).val / 512, hlt⟩ (0 : Fin 2) * 512 + 512
    omega
  | ⟨1, _⟩ =>
    show win0_4.index ⟨(i 0).val / 512, hlt⟩ (1 : Fin 2) * 2048 ≤ (i 1).val ∧ (i 1).val < win0_4.index ⟨(i 0).val / 512, hlt⟩ (1 : Fin 2) * 2048 + 2048
    omega

/-- THE ARRAY after the run: the layer of the arguments. -/
theorem final (c : Dev nD) : (dats m 0 c).arrAt 4 cfg0.N
    = rbf (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run, read: the output at the layer of the arguments, the arguments unchanged. -/
theorem run : θ_run defs (onTc (τ := τ) (main (F := Ideal))) ⟨m, fun _ => 0, ρ⟩ fun r => ∀ c : Dev nD,
      r.2.mem ((c : Thread nD τ).loc main_v8)
        = rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.KernelArray

end
-- ==== Proof.LibGaussScale.lean ====
/-
  A Gaussian basis function with a width given by its logarithm, in two spellings, on the extended reals.

  For a squared distance `S ≥ 0` (possibly `+∞`) and a real log-width `l`, the distance measured in widths is
  `√S / e^l`, and the basis function is `exp (-(√S / e^l)²)`. Since `(√S)² = S` and `(1 / e^l)² = e^(-2l)`, this is
  `exp (-S · e^(-2l))`: the square root is never needed. At `S = +∞` both spellings are `exp (-∞) = 0`, the factor
  `e^(-2l)` being a positive real. The word `0xC0000000` is the number `-2`.
-/
import Idealize.ShloMosaic.PureOps.Ideal

noncomputable section

namespace Cert.LibGaussScale

open Idealize.ShloMosaic

/-- The single-precision word `0xC0000000` denotes `-2`. -/
theorem ofBits_neg_two : Ideal.ofBits .f32 0xC0000000#32 = ((-2 : ℝ) : EReal) := by
  simp [Ideal.ofBits, Ideal.ieee, -EReal.coe_mul]; norm_num

/-- On the reals: `-((√r · (1/e^l)) · (√r · (1/e^l))) = -r · e^(-2l)` for `r ≥ 0`. -/
theorem real_scale {r : ℝ} (hr : 0 ≤ r) (l : ℝ) :
    -((Real.sqrt r * (1 / Real.exp l)) * (Real.sqrt r * (1 / Real.exp l))) = -r * Real.exp (-2 * l) := by
  have e1 : (1 / Real.exp l) = Real.exp (-l) := by rw [Real.exp_neg, one_div]
  have e2 : Real.exp (-2 * l) = Real.exp (-l) * Real.exp (-l) := by
    rw [← Real.exp_add]; congr 1; ring
  have hs := Real.mul_self_sqrt hr
  rw [e1, e2]
  linear_combination (-(Real.exp (-l) * Real.exp (-l))) * hs

/-- THE LAW: for `0 ≤ S` and a real `l`, `exp (-((√S / e^l) · (√S / e^l))) = exp ((0 - S) · exp (-2 · l))`, with the
    ideal instance's square root, quotient and exponential, at `S = +∞` too. -/
theorem gauss_scale (S : EReal) (hS : 0 ≤ S) (l : ℝ) :
    Ideal.exp (-(Ideal.div (Ideal.sqrt S) (Ideal.exp (l : EReal)) * Ideal.div (Ideal.sqrt S) (Ideal.exp (l : EReal))))
      = Ideal.exp ((0 - S) * Ideal.exp (((-2 : ℝ) : EReal) * (l : EReal))) := by
  have hE : Ideal.exp (l : EReal) = ((Real.exp l : ℝ) : EReal) := rfl
  have hpos : (0 : ℝ) < Real.exp l := Real.exp_pos l
  have hinv : (0 : ℝ) < 1 / Real.exp l := one_div_pos.mpr hpos
  have h2 : ((-2 : ℝ) : EReal) * (l : EReal) = ((-2 * l : ℝ) : EReal) := (EReal.coe_mul _ _).symm
  have hE2 : Ideal.exp ((-2 * l : ℝ) : EReal) = ((Real.exp (-2 * l) : ℝ) : EReal) := rfl
  rw [hE, Ideal.div_coe hpos.ne', h2, hE2, zero_sub]
  induction S using EReal.rec with
  | bot => exact absurd hS (by simp)
  | top =>
    rw [Ideal.sqrt_top, EReal.top_mul_coe_of_pos hinv, EReal.top_mul_top, EReal.neg_top,
      EReal.bot_mul_coe_of_pos (Real.exp_pos _)]
  | coe r =>
    have hr : 0 ≤ r := by exact_mod_cast hS
    rw [Ideal.sqrt_coe, if_neg (not_lt.mpr hr), ← EReal.coe_mul, ← EReal.coe_mul, ← EReal.coe_neg, ← EReal.coe_neg,
      ← EReal.coe_mul, real_scale hr l]

end Cert.LibGaussScale

end
-- ==== Proof.RefEntry.lean ====
/-
  The reference computes the radial-basis layer.

  Read entry by entry, the reference's last stage at point `n`, centre `c` is
    exp (-((√S / e^l) · (√S / e^l))),   S = max ((|x_n|² + |c_c|²) - 2 ⟨x_n, c_c⟩) 0,   l = ls_c,
  its two sums of squares each started from the zero word. With `l` a real number this is the layer's entry
  `exp ((0 - S) · exp (-2 · l))` by the law of the Gaussian with a logarithmic width.
-/
import proofs.«173852_j32100585570665_2_alg».proof.Proof.Gen.ReferenceIdeal.Read
import proofs.«173852_j32100585570665_2_alg».proof.Proof.RbfSpec
import proofs.«173852_j32100585570665_2_alg».proof.Proof.LibGaussScale
import Idealize.ShloMosaic.PureOps.Ideal.Laws

noncomputable section

namespace Cert.Rbf.Ref

open Idealize.ShloMosaic Idealize.ShloMosaic.ValueIdx Cert.ReferenceIdeal Cert.ReferenceIdeal.Gen Cert.ReferenceIdeal.Read

/-- The reference's result is the layer, when every log-width is a real number. -/
theorem result_eq (x0 : (⟨S16384x1024, .f32⟩ : BufTy).Contents (Elt Ideal)) (x1 : (⟨S2048x1024, .f32⟩ : BufTy).Contents (Elt Ideal))
    (x2 : (⟨S2048, .f32⟩ : BufTy).Contents (Elt Ideal)) (hfin : ∀ j : S2048.Idx, ∃ l : ℝ, x2 j = (l : EReal)) :
    val_main_v22 (F := Ideal) x0 x1 x2 = Cert.Rbf.rbf x0 x1 x2 := by
  funext i
  obtain ⟨n, c, rfl⟩ : ∃ (n : Fin 16384) (c : Fin 2048), i = ix2 n c := ⟨i 0, i 1, eq_ix2 i⟩
  obtain ⟨l, hl⟩ := hfin (ix1 c)
  have e1 : ∀ k : Fin 1024, idx_main_v1 (idx_main_v2 (idx_main_v7 (ix2 n c))) k = ix2 n k := fun k =>
    funext fun a => Fin.ext (by match a with | ⟨0, _⟩ => rfl | ⟨1, _⟩ => rfl)
  have e2 : ∀ k : Fin 1024, idx_main_v4 (idx_main_v6 (idx_main_v8 (ix2 n c))) k = ix2 c k := fun k =>
    funext fun a => Fin.ext (by match a with | ⟨0, _⟩ => rfl | ⟨1, _⟩ => rfl)
  have e3 : ∀ k : Fin 1024, lidx_main_v5 (ix2 n c) k = ix2 n k := fun k =>
    funext fun a => Fin.ext (by match a with | ⟨0, _⟩ => rfl | ⟨1, _⟩ => rfl)
  have e4 : ∀ k : Fin 1024, ridx_main_v5 (ix2 n c) k = ix2 c k := fun k =>
    funext fun a => Fin.ext (by match a with | ⟨0, _⟩ => rfl | ⟨1, _⟩ => rfl)
  have e5 : idx_main_v17 (idx_main_v18 (ix2 n c)) = ix1 c :=
    funext fun a => Fin.ext (by match a with | ⟨0, _⟩ => rfl)
  rw [val_main_v22_apply, val_main_v21_apply, val_main_v20_apply, val_main_v19_apply, val_main_v18_apply, val_main_v17_apply,
    val_main_v16_apply, val_main_v15_apply, val_main_v14_apply, val_main_v13_apply, val_main_cst_2_apply, val_main_v12_apply,
    val_main_v11_apply, val_main_v10_apply, val_main_cst_1_apply, val_main_v5_apply, val_main_v9_apply, val_main_v8_apply,
    val_main_v6_apply, val_main_v4_apply, val_main_cst_0_apply, val_main_v7_apply, val_main_v2_apply, val_main_v1_apply,
    val_main_cst_apply]
  simp only [val_main_v3_apply, val_main_v0_apply, e1, e2, e3, e4, e5, hl, Ideal.hostUnary_exp_def, Ideal.hostNegf_def,
    Ideal.negf_def, Ideal.mulf_def, Ideal.hostDivf_def, Ideal.hostUnary_sqrt_def, Ideal.maximumf_def, Ideal.subf_def,
    Ideal.addf_def, Ideal.ofBits_def, Ideal.ofBits_zero_f32, zero_add]
  rw [rbf_ix2]
  unfold rbfAt
  rw [hl, Cert.LibGaussScale.ofBits_neg_two, ← Cert.LibGaussScale.gauss_scale _ (sqDist_nonneg x0 x1 n c) l]
  rfl

end Cert.Rbf.Ref

end
-- ==== Proof.FiniteWidths.lean ====
/-
  Under the precondition every log-width is a real number.

  The precondition is the conjunction of three tests "every entry has absolute value below +∞", one per input; the third
  is about the log-widths. An extended real whose absolute value `max x (-x)` is below `+∞` is neither infinity, so it
  is a real. (The word `0x7F800000` is `+∞`.) Only the widths' finiteness is used by this certificate: the squared
  distance may be `+∞` without harm, the width's exponential may not be `0` or `+∞`.
-/
import proofs.«173852_j32100585570665_2_alg».proof.Pre_finite_inputs
import Idealize.ShloMosaic.Lib.ReduceAll
import Idealize.ShloMosaic.Lib.ValueIdx
import Idealize.ShloMosaic.PureOps.Ideal

noncomputable section

namespace Cert.Rbf

open Idealize.ShloMosaic

instance : Subsingleton Cert.Pre_finite_inputs.S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ l : ℝ, x = (l : EReal) := by
  rw [ofBits_inf] at h
  induction x using EReal.rec with
  | bot => exfalso; revert h; simp [Ideal.cmp]
  | top => exfalso; revert h; simp [Ideal.cmp]
  | coe r => exact ⟨r, rfl⟩

/-- The precondition's third conjunct: every log-width is a real number. -/
theorem widths_real [Cert.Pre_finite_inputs.Facts]
    (a0 : FVec Ideal Cert.Pre_finite_inputs.S16384x1024 .f32) (a1 : FVec Ideal Cert.Pre_finite_inputs.S2048x1024 .f32)
    (a2 : FVec Ideal Cert.Pre_finite_inputs.S2048 .f32)
    (h : Cert.Pre_finite_inputs.fn (F := Ideal) a0 a1 a2 = fun _ => 1#1) (j : Cert.Pre_finite_inputs.S2048.Idx) :
    ∃ l : ℝ, a2 j = (l : EReal) := by
  have h0 := congrFun h ValueIdx.ix0
  dsimp only [Cert.Pre_finite_inputs.fn] at h0
  have h1 := (IntOp.andi_eq_one.1 h0).2
  have h2 := Host.reduce_andi_all _ _ _ _ _ h1 j
  exact real_of_abs_lt_inf _ h2

end Cert.Rbf

end
-- ==== Proof.lean ====
/-
  A radial-basis layer: for 16384 points `x_n` and 2048 centres `c_c` of 1024 features and a log-width `ls_c` per
  centre, the entry `(n, c)` is the Gaussian of the distance from `x_n` to `c_c` measured in widths,
    exp (-(|x_n - c_c| / e^{ls_c})²),
  the squared distance taken by the expansion `|x_n|² + |c_c|² - 2 ⟨x_n, c_c⟩` and clamped below at zero.

  The kernel never takes the square root: it multiplies the clamped squared distance by `exp (-2 · ls_c)`, prepared on
  the host, and works on tiles of 512 points against all the centres (Proof/TileEntry.lean: one entry of a tile;
  Proof/KernelArray.lean: the tiles are blocks of one function of the arguments, Proof/RbfSpec.lean's `rbf`, and they
  tile the output). The reference takes the square root, divides by `e^{ls_c}`, squares and negates
  (Proof/RefEntry.lean). On the extended reals the two agree when `ls_c` is a real number — `(√S)² = S` for `S ≥ 0`,
  `(1/e^l)² = e^{-2l}`, and at `S = +∞` both are `exp (-∞) = 0` (Proof/LibGaussScale.lean) — which the precondition
  gives (Proof/FiniteWidths.lean). The sums of squares and the inner products are the same extended-real sums on both
  sides, so the points and the centres need no finiteness.
  The three frames are the generated runs; the idealization rewrote nothing.
-/
import proofs.«173852_j32100585570665_2_alg».proof.Defs
import proofs.«173852_j32100585570665_2_alg».proof.Proof.Gen.Kernel
import proofs.«173852_j32100585570665_2_alg».proof.Proof.Gen.Kernel.Skeleton
import proofs.«173852_j32100585570665_2_alg».proof.Proof.Gen.Kernel.Launch
import proofs.«173852_j32100585570665_2_alg».proof.Proof.Gen.Kernel.Points
import proofs.«173852_j32100585570665_2_alg».proof.Proof.Gen.Kernel.Frame
import proofs.«173852_j32100585570665_2_alg».proof.Proof.Gen.KernelIdeal
import proofs.«173852_j32100585570665_2_alg».proof.Proof.Gen.KernelIdeal.Skeleton
import proofs.«173852_j32100585570665_2_alg».proof.Proof.Gen.KernelIdeal.Launch
import proofs.«173852_j32100585570665_2_alg».proof.Proof.Gen.KernelIdeal.Points
import proofs.«173852_j32100585570665_2_alg».proof.Proof.Gen.KernelIdeal.Frame
import proofs.«173852_j32100585570665_2_alg».proof.Proof.Gen.ReferenceIdeal
import proofs.«173852_j32100585570665_2_alg».proof.Proof.Gen.Pre_finite_inputs
import proofs.«173852_j32100585570665_2_alg».proof.Proof.Gen.KernelIdeal.Value
import proofs.«173852_j32100585570665_2_alg».proof.Proof.Gen.ReferenceIdeal.Run
import proofs.«173852_j32100585570665_2_alg».proof.Proof.Gen.ReferenceIdeal.Read
import proofs.«173852_j32100585570665_2_alg».proof.Proof.KernelArray
import proofs.«173852_j32100585570665_2_alg».proof.Proof.RefEntry
import proofs.«173852_j32100585570665_2_alg».proof.Proof.FiniteWidths
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer `rbf` of the arguments: the kernel tile by tile, the reference entry by entry by
    the law of the Gaussian with a logarithmic width, the log-widths being real numbers under the precondition. -/
theorem algebraic : Cert.algebraic_KernelIdeal_ReferenceIdeal := by
  intro m ρ m' ρ' hpre hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Rbf.KernelArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _).trans ?_
  rw [(hagree c).1, (hagree c).2.1, (hagree c).2.2]
  exact Cert.Rbf.Ref.result_eq _ _ _ (fun j => Cert.Rbf.widths_real _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
